-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : FVec F S640000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S640000 .f32 := Host.absf main_arg4
  let main_cst_6 : FVec F S_ .f32 := constant S_ .f32 0x7F800000#32
  let main_v20 : FVec F S640000 .f32 := broadcastInDim S640000 ![] bcast_S_S640000 main_cst_6
  let main_v21 : IVec S640000 1 := cmpf .olt main_v19 main_v20
  let main_c_7 : IVec S_ 1 := constantI S_ 1 1#1
  let main_v22 : IVec S_ 1 := (fun x v => Host.reduce IntOp.andi x v reducesTo_S640000_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128x128 .f32) (main_arg3 : FVec F S128 .f32) (main_arg4 : FVec F S640000 .f32) (main_arg5 : IVec S640000 32) (main_arg6 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S640000 : Shape := ⟨1, ![640000]⟩
abbrev S2000x128 : Shape := ⟨2, ![2000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 27
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S640000, .f32⟩
  | .hbm, ⟨5, _⟩ => ⟨S640000, .i32⟩
  | .hbm, ⟨6, _⟩ => ⟨S640000, .i32⟩
  | .hbm, ⟨7, _⟩ => ⟨S50000x128, .f32⟩
  | .hbm, ⟨8, _⟩ => ⟨S50000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x1, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S1x128, .f32⟩
  | .hbm, ⟨26, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S640000, .f32⟩
  | .hbm, ⟨5, _⟩ => ⟨S640000, .i32⟩
  | .hbm, ⟨6, _⟩ => ⟨S640000, .i32⟩
  | .hbm, ⟨7, _⟩ => ⟨S50000x128, .f32⟩
  | .hbm, ⟨8, _⟩ => ⟨S50000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x1, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.WholeRun.lean ====
/-
  The whole program's run with its result named.

  The program is three segments: the projection region, a stretch of host operations (gather the neighbours' rows,
  weight them, sum them per target node; reshape the bias), and the combining region. Every weakly fair execution
  runs through them in order and terminates, and the final memory holds, at every buffer that outlives a region, the
  last boundary's contents: in particular the result buffer holds what the combining region's write-backs leave, and
  the seven arguments hold what they were launched with.
-/
import proofs.«167363_j38405597561663_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the contents of the last
    boundary (what the second region's write-backs leave of its output array), and the arguments end as launched. -/
theorem run : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.WholeRun

end
-- ==== Proof.Layer.lean ====
/-
  The last step of a graph-convolution layer on the extended reals: three arrays are added entry by entry — the
  node's own projection, the sum its neighbours sent, and one bias row repeated down every row — and the sum is
  floored at a constant. Written `biasFloor x a brow z`: entry `(p, q)` is `max (x (p, q) + a (p, q) + brow (0, q)) z`.

  Three facts about it. A kernel body that adds two blocks, adds the bias row broadcast over the block's rows and
  takes the maximum with a splat word computes `biasFloor` of the blocks (`body_biasFloor`). The host's spelling —
  the bias vector broadcast to one row, that row broadcast over all rows, two additions and a maximum with a
  broadcast scalar — is `biasFloor` with the bias vector as its one row (`host_biasFloor`). And since an entry
  depends on its own row of `x` and `a` only, a block of rows of `biasFloor` is `biasFloor` of those blocks of rows
  (`biasFloor_rows`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.GraphConv

open Idealize.ShloMosaic Idealize.ShloMosaic.ValueIdx

/-- Entry `(p, q)` is `max (x (p, q) + a (p, q) + brow (0, q)) z`. -/
def biasFloor {M N : ℕ} (x a : (⟨2, ![M, N]⟩ : Shape).Idx → EReal) (brow : (⟨2, ![1, N]⟩ : Shape).Idx → EReal) (z : EReal) :
    (⟨2, ![M, N]⟩ : Shape).Idx → EReal :=
  fun j => max (x j + a j + brow (ix2 (0 : Fin 1) (⟨(j 1).val, idx2_lt1 j⟩ : Fin N))) z

theorem biasFloor_apply {M N : ℕ} (x a : (⟨2, ![M, N]⟩ : Shape).Idx → EReal) (brow : (⟨2, ![1, N]⟩ : Shape).Idx → EReal)
    (z : EReal) (p : Fin M) (q : Fin N) :
    biasFloor x a brow z (ix2 p q) = max (x (ix2 p q) + a (ix2 p q) + brow (ix2 (0 : Fin 1) q)) z := rfl

/-- A kernel body's spelling: the two blocks (each through a shape cast to its own shape) added, the bias row (through
    two such casts) broadcast over the rows and added, the maximum with a splat of the word `w`. -/
theorem body_biasFloor {R N : ℕ} (v0 : FVec Ideal ⟨2, ![1, N]⟩ .f32) (v4 v6 : FVec Ideal ⟨2, ![R, N]⟩ .f32)
    (h1 : (⟨2, ![1, N]⟩ : Shape).ShapeCasts ⟨2, ![1, N]⟩) (h2 : (⟨2, ![1, N]⟩ : Shape).Broadcasts ⟨2, ![R, N]⟩)
    (h3 : (⟨2, ![R, N]⟩ : Shape).ShapeCasts ⟨2, ![R, N]⟩) (w : BitVec 32) :
    maximumf (addf (addf (shapeCast ⟨2, ![R, N]⟩ v4 h3) (shapeCast ⟨2, ![R, N]⟩ v6 h3))
        (broadcastTo ⟨2, ![R, N]⟩ (shapeCast ⟨2, ![1, N]⟩ (shapeCast ⟨2, ![1, N]⟩ v0 h1) h1) h2))
      (broadcast ⟨2, ![R, N]⟩ (Scalar.ofBits (F := Ideal) .f32 w))
    = biasFloor v4 v6 v0 (Ideal.ofBits .f32 w) := by
  rw [shapeCast_self, shapeCast_self, shapeCast_self, shapeCast_self]
  funext j
  obtain ⟨p, q, rfl⟩ : ∃ (p : Fin R) (q : Fin N), j = ix2 p q := ⟨j 0, j 1, eq_ix2 j⟩
  rw [maximumf_apply, addf_apply, addf_apply, broadcast_apply, broadcastTo_1b_ab_apply]
  rfl

/-- The host's spelling: the bias vector `b` broadcast to a `[1, N]` row and that row to `[M, N]`, added to the sum
    of the two arrays, and the maximum with a broadcast scalar word. The one row is `b` itself read along its axis. -/
theorem host_biasFloor {M N : ℕ} (x a : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) :
    maximumf (addf (addf x a) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w))
    = biasFloor x a (fun k => b (ix1 (⟨(k 1).val, idx2_lt1 k⟩ : Fin N))) (Ideal.ofBits .f32 w) := by
  funext j
  obtain ⟨p, q, rfl⟩ : ∃ (p : Fin M) (q : Fin N), j = ix2 p q := ⟨j 0, j 1, eq_ix2 j⟩
  rw [maximumf_apply, addf_apply, addf_apply,
    broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl),
    broadcastInDim_apply ![] h0 _ (ix2 p q) ix0 (fun ax => ax.elim0)]
  rfl

/-- Rows `o, o + 1, …, o + R - 1`: if `xb`, `ab` are those rows of `x`, `a`, then `biasFloor xb ab brow z` is the same
    block of rows of `biasFloor x a brow z`. -/
theorem biasFloor_rows {M R N : ℕ} (o : ℕ) (x a : (⟨2, ![M, N]⟩ : Shape).Idx → EReal)
    (xb ab : (⟨2, ![R, N]⟩ : Shape).Idx → EReal) (brow : (⟨2, ![1, N]⟩ : Shape).Idx → EReal) (z : EReal)
    (hx : ∀ (y : Fin R) (q : Fin N) (h : o + y.val < M), xb (ix2 y q) = x (ix2 (⟨o + y.val, h⟩ : Fin M) q))
    (ha : ∀ (y : Fin R) (q : Fin N) (h : o + y.val < M), ab (ix2 y q) = a (ix2 (⟨o + y.val, h⟩ : Fin M) q))
    (y : (⟨2, ![R, N]⟩ : Shape).Idx) (i : (⟨2, ![M, N]⟩ : Shape).Idx) (h0 : (i 0).val = o + (y 0).val) (h1 : (i 1).val = (y 1).val) :
    biasFloor xb ab brow z y = biasFloor x a brow z i := by
  obtain ⟨yr, yq, rfl⟩ : ∃ (yr : Fin R) (yq : Fin N), y = ix2 yr yq := ⟨y 0, y 1, eq_ix2 y⟩
  have h0' : (i 0).val = o + yr.val := h0
  have h1' : (i 1).val = yq.val := h1
  have hM : o + yr.val < M := h0' ▸ idx2_lt0 i
  have ei : i = ix2 (⟨o + yr.val, hM⟩ : Fin M) yq := by
    funext ax
    match ax with
    | ⟨0, _⟩ => exact Fin.ext h0'
    | ⟨1, _⟩ => exact Fin.ext h1'
  rw [ei, biasFloor_apply, biasFloor_apply, hx yr yq hM, ha yr yq hM]

end Cert.GraphConv

end
-- ==== Proof.Combine.lean ====
/-
  The second kernel region: the three summands joined and floored.

  Each grid point `t` of the 25 loads rows `2000 t … 2000 t + 1999` of the projected features and of the summed
  neighbour messages, and the one bias row, and stores `max (x + a + bias, 0)` into the same rows of the result. An
  entry depends on its own row of the two arrays only, and the 25 blocks tile the 50000 rows: whatever the region
  finds in its buffers, it leaves the result array at `biasFloor` of the two arrays and the bias row.
-/
import proofs.«167363_j38405597561663_1_alg».proof.Proof.Gen.KernelIdeal.Frame
import proofs.«167363_j38405597561663_1_alg».proof.Proof.Layer
import Idealize.ShloMosaic.Lib.Pipeline.Value

noncomputable section

namespace Cert.KernelIdeal.Combine

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The store's value: the two blocks and the bias row added, floored at the zero word's value. -/
theorem pay1_eq (v0 : Vec Ideal S1x128 .f32) (v4 v6 : Vec Ideal S2000x128 .f32) :
    k1_pay1 (F := Ideal) v0 v4 v6 = biasFloor v4 v6 v0 (Ideal.ofBits .f32 0x00000000#32) := by
  unfold k1_pay1
  exact body_biasFloor v0 v4 v6 _ _ _ _

/-- Where each window's block sits at point `t`: the two arrays and the result move with `t`, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's one block is the whole row. -/
theorem blk2_whole (c : Dev nD) (t : Fin cfg1.N) : iblk1 V c 2 t = V c main_v14 := by
  obtain ⟨-, -, -, -, e0, e1, -⟩ := idx_facts t
  funext y
  show V c main_v14 (((cfg1.win 2).blk t).view.emb y) = V c main_v14 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The projected features' block at `t` is rows `2000 t …` of that array, -/
theorem blk0_rows (c : Dev nD) (t : Fin cfg1.N) (y : Fin 2000) (q : Fin 128) (h : t.val * 2000 + y.val < 50000) :
    iblk1 V c 0 t (ix2 y q) = V c main_v0_0 (ix2 (⟨t.val * 2000 + y.val, h⟩ : Fin 50000) q) := by
  obtain ⟨e0, e1, -⟩ := idx_facts t
  show V c main_v0_0 (((cfg1.win 0).blk t).view.emb (ix2 y q)) = _
  refine congrArg _ (funext fun a => Fin.ext ?_)
  match a with
  | ⟨0, _⟩ => show win1_0.index t (0 : Fin 2) * 2000 + 1 * y.val = t.val * 2000 + y.val; omega
  | ⟨1, _⟩ => show win1_0.index t (1 : Fin 2) * 128 + 1 * q.val = q.val; omega

/-- and the summed messages' block at `t` the same rows of theirs. -/
theorem blk1_rows (c : Dev nD) (t : Fin cfg1.N) (y : Fin 2000) (q : Fin 128) (h : t.val * 2000 + y.val < 50000) :
    iblk1 V c 1 t (ix2 y q) = V c main_v13 (ix2 (⟨t.val * 2000 + y.val, h⟩ : Fin 50000) q) := by
  obtain ⟨-, -, e0, e1, -⟩ := idx_facts t
  show V c main_v13 (((cfg1.win 1).blk t).view.emb (ix2 y q)) = _
  refine congrArg _ (funext fun a => Fin.ext ?_)
  match a with
  | ⟨0, _⟩ => show win1_1.index t (0 : Fin 2) * 2000 + 1 * y.val = t.val * 2000 + y.val; omega
  | ⟨1, _⟩ => show win1_1.index t (1 : Fin 2) * 128 + 1 * q.val = q.val; omega

/-- What point `t` writes back: rows `2000 t …` of `biasFloor` of the whole arrays. -/
theorem flushed3_eq (c : Dev nD) (t : Fin cfg1.N) :
    (dat1 V c).flushed 3 t
      = ((cfg1.win 3).blk t).view.read (Elt Ideal)
          (biasFloor (V c main_v0_0) (V c main_v13) (V c main_v14) (Ideal.ofBits .f32 0x00000000#32)) := by
  show (cfg1.win 3).cut (grid1.coords t) ((dat1 V c).after 3 t) = _
  rw [after1_3]
  unfold out1_3
  rw [View.canon_unit_zero zeros]
  simp only [View.ld_unit_zero (S := S2000x128) zeros, View.ld_unit_zero (S := S1x128) zeros]
  rw [pay1_eq, blk2_whole]
  obtain ⟨-, -, -, -, -, -, e0, e1⟩ := idx_facts t
  funext j
  show biasFloor (iblk1 V c 0 t) (iblk1 V c 1 t) (V c main_v14) (Ideal.ofBits .f32 0x00000000#32) j
    = biasFloor (V c main_v0_0) (V c main_v13) (V c main_v14) (Ideal.ofBits .f32 0x00000000#32)
        (((cfg1.win 3).blk t).view.emb j)
  refine biasFloor_rows (t.val * 2000) (V c main_v0_0) (V c main_v13) (iblk1 V c 0 t) (iblk1 V c 1 t) (V c main_v14) _
    (blk0_rows V c t) (blk1_rows V c t) j _ ?_ ?_
  · show win1_3.index t (0 : Fin 2) * 2000 + 1 * (j 0).val = t.val * 2000 + (j 0).val; omega
  · show win1_3.index t (1 : Fin 2) * 128 + 1 * (j 1).val = (j 1).val; omega

/-- An index of the result array is in point `t`'s block iff each coordinate is in the block's range on its axis. -/
theorem mem_blk3 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v15).slice (win1_3.rect t)).set ↔ _
  rw [View.set_slice_whole, Rect.mem_set_unit]
  exact Iff.rfl

/-- Row `r` of the result lies in the block of point `r / 2000`. -/
theorem cover3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, e0, e1⟩ := idx_facts t
  have ht : t.val = (i 0).val / 2000 := rfl
  refine ⟨t, flush1_3 t, ?_⟩
  rw [mem_blk3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After the region the result array is `biasFloor` of the arrays the region found. -/
theorem final3 (c : Dev nD) :
    (dat1 V c).arrAt 3 cfg1.N
      = biasFloor (V c main_v0_0) (V c main_v13) (V c main_v14) (Ideal.ofBits .f32 0x00000000#32) :=
  (dat1 V c).arrAt_eq_of_cover 3 _ (fun t _ => flushed3_eq V c t) cover3

end Cert.KernelIdeal.Combine

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Projections.lean ====
/-
  The first kernel region: two projections of the node features.

  Each grid point `t` of the 25 loads rows `2000 t … 2000 t + 1999` of the feature array and both whole weight
  matrices, and stores the block's product with each weight matrix into the same rows of the two result arrays. A
  product's rows depend on the same rows of its left operand only, so what point `t` writes back is rows
  `2000 t …` of the whole products; the 25 blocks tile the 50000 rows; hence, whatever the region finds in its
  buffers, it leaves the two result arrays at `features · w1` and `features · w2`.
-/
import proofs.«167363_j38405597561663_1_alg».proof.Proof.Gen.KernelIdeal.Frame
import proofs.«167363_j38405597561663_1_alg».proof.Proof.LibPlainDot
import Idealize.ShloMosaic.Lib.Pipeline.Value

noncomputable section

namespace Cert.KernelIdeal.Projections

open Cert.KernelIdeal Cert.KernelIdeal.Gen Idealize.ShloMosaic Idealize.ShloMosaic.TcCoe Idealize.SL.Sem
open Idealize.ShloMosaic.ValueIdx Cert.LibPlainDot
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Each store's value: the block of rows times a weight matrix (rounding the operands to bf16 changes nothing on the
    extended reals, and the product is accumulated into zeros). -/
theorem pay2_eq (x0 : Vec Ideal S2000x128 .f32) (x1 : Vec Ideal S128x128 .f32) :
    k0_pay2 (F := Ideal) x0 x1 = rowsTimes x0 x1 := by
  unfold k0_pay2 k0_pay1
  exact matmul_zero_plain none _ _

theorem pay3_eq (x0 : Vec Ideal S2000x128 .f32) (x2 : Vec Ideal S128x128 .f32) :
    k0_pay3 (F := Ideal) x0 x2 = rowsTimes x0 x2 := by
  unfold k0_pay3 k0_pay1
  exact matmul_zero_plain none _ _

/-- Where each window's block sits at point `t`: the feature rows and both results move with `t`, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The weight windows' one block is the whole matrix. -/
theorem blk1_whole (c : Dev nD) (t : Fin cfg0.N) : iblk0 V c 1 t = V c main_arg1 := by
  obtain ⟨-, -, e0, e1, -⟩ := idx_facts t
  funext y
  show V c main_arg1 (((cfg0.win 1).blk t).view.emb y) = V c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk2_whole (c : Dev nD) (t : Fin cfg0.N) : iblk0 V c 2 t = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The feature window's block at `t` is rows `2000 t …` of the feature array. -/
theorem blk0_rows (c : Dev nD) (t : Fin cfg0.N) (y : Fin 2000) (k : Fin 128) (h : t.val * 2000 + y.val < 50000) :
    iblk0 V c 0 t (ix2 y k) = V c main_arg0 (ix2 (⟨t.val * 2000 + y.val, h⟩ : Fin 50000) k) := by
  obtain ⟨e0, e1, -⟩ := idx_facts t
  show V c main_arg0 (((cfg0.win 0).blk t).view.emb (ix2 y k)) = _
  refine congrArg _ (funext fun a => Fin.ext ?_)
  match a with
  | ⟨0, _⟩ => show win0_0.index t (0 : Fin 2) * 2000 + 1 * y.val = t.val * 2000 + y.val; omega
  | ⟨1, _⟩ => show win0_0.index t (1 : Fin 2) * 128 + 1 * k.val = k.val; omega

/-- What point `t` writes back to the first result: rows `2000 t …` of `features · w1`. -/
theorem flushed3_eq (c : Dev nD) (t : Fin cfg0.N) :
    (dat0 V c).flushed 3 t
      = ((cfg0.win 3).blk t).view.read (Elt Ideal) (rowsTimes (V c main_arg0) (V c main_arg1)) := by
  show (cfg0.win 3).cut (grid0.coords t) ((dat0 V c).after 3 t) = _
  rw [after0_3]
  unfold out0_3
  rw [View.canon_unit_zero zeros]
  simp only [View.ld_unit_zero (S := S2000x128) zeros, View.ld_unit_zero (S := S128x128) zeros]
  rw [pay2_eq, blk1_whole]
  obtain ⟨-, -, -, -, -, -, e0, e1, -⟩ := idx_facts t
  funext j
  show rowsTimes (iblk0 V c 0 t) (V c main_arg1) j
    = rowsTimes (V c main_arg0) (V c main_arg1) (((cfg0.win 3).blk t).view.emb j)
  refine rowsTimes_rows (t.val * 2000) (V c main_arg0) (iblk0 V c 0 t) (V c main_arg1) (blk0_rows V c t) j _ ?_ ?_
  · show win0_3.index t (0 : Fin 2) * 2000 + 1 * (j 0).val = t.val * 2000 + (j 0).val; omega
  · show win0_3.index t (1 : Fin 2) * 128 + 1 * (j 1).val = (j 1).val; omega

/-- What point `t` writes back to the second result: rows `2000 t …` of `features · w2`. -/
theorem flushed4_eq (c : Dev nD) (t : Fin cfg0.N) :
    (dat0 V c).flushed 4 t
      = ((cfg0.win 4).blk t).view.read (Elt Ideal) (rowsTimes (V c main_arg0) (V c main_arg2)) := by
  show (cfg0.win 4).cut (grid0.coords t) ((dat0 V c).after 4 t) = _
  rw [after0_4]
  unfold out0_4
  rw [View.canon_unit_zero zeros]
  simp only [View.ld_unit_zero (S := S2000x128) zeros, View.ld_unit_zero (S := S128x128) zeros]
  rw [pay3_eq, blk2_whole]
  obtain ⟨-, -, -, -, -, -, -, -, e0, e1⟩ := idx_facts t
  funext j
  show rowsTimes (iblk0 V c 0 t) (V c main_arg2) j
    = rowsTimes (V c main_arg0) (V c main_arg2) (((cfg0.win 4).blk t).view.emb j)
  refine rowsTimes_rows (t.val * 2000) (V c main_arg0) (iblk0 V c 0 t) (V c main_arg2) (blk0_rows V c t) j _ ?_ ?_
  · show win0_4.index t (0 : Fin 2) * 2000 + 1 * (j 0).val = t.val * 2000 + (j 0).val; omega
  · show win0_4.index t (1 : Fin 2) * 128 + 1 * (j 1).val = (j 1).val; omega

/-- An index of a result array is in point `t`'s block iff each coordinate is in the block's range on its axis. -/
theorem mem_blk3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v0_0).slice (win0_3.rect t)).set ↔ _
  rw [View.set_slice_whole, Rect.mem_set_unit]
  exact Iff.rfl

theorem mem_blk4 (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v0_1).slice (win0_4.rect t)).set ↔ _
  rw [View.set_slice_whole, Rect.mem_set_unit]
  exact Iff.rfl

/-- Row `r` of a result array lies in the block of point `r / 2000`: the 25 blocks of 2000 rows tile the 50000 rows. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e0, e1, -⟩ := idx_facts t
  have ht : t.val = (i 0).val / 2000 := rfl
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, e0, e1⟩ := idx_facts t
  have ht : t.val = (i 0).val / 2000 := rfl
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- After the region the first result array is `features · w1` of the arrays the region found, -/
theorem final3 (c : Dev nD) :
    (dat0 V c).arrAt 3 cfg0.N = rowsTimes (V c main_arg0) (V c main_arg1) :=
  (dat0 V c).arrAt_eq_of_cover 3 (rowsTimes (V c main_arg0) (V c main_arg1)) (fun t _ => flushed3_eq V c t) cover3

/-- and the second is `features · w2`. -/
theorem final4 (c : Dev nD) :
    (dat0 V c).arrAt 4 cfg0.N = rowsTimes (V c main_arg0) (V c main_arg2) :=
  (dat0 V c).arrAt_eq_of_cover 4 (rowsTimes (V c main_arg0) (V c main_arg2)) (fun t _ => flushed4_eq V c t) cover4

end Cert.KernelIdeal.Projections

end
-- ==== Proof.Neighbours.lean ====
/-
  The neighbourhood sum of a graph-convolution layer, as the host computes it.

  For every edge: take the source node's projected row (a negative source number first has the node count added, the
  way array indexing reads it), multiply the row by the edge's weight, and add it into the target node's row of an
  array that starts at zero. The kernel's program and the reference spell this with the same seventeen host
  operations, so the certificate never opens it: it is carried as ONE function `aggregate` of the projected rows, the
  edge weights and the two edge-end arrays, and both sides are shown to apply it to equal arguments.
-/
import proofs.«167363_j38405597561663_1_alg».proof.KernelIdeal
import proofs.«167363_j38405597561663_1_alg».proof.Proof.Gen.KernelIdeal
import Idealize.ShloMosaic.PureOps.Ideal

noncomputable section

namespace Cert.KernelIdeal.Neighbours

open Cert.KernelIdeal Cert.KernelIdeal.Gen Idealize.ShloMosaic

/-- Gather the source rows of `x1`, scale each by its edge's weight, and sum the scaled rows per target node. -/
def aggregate (x1 : FVec Ideal S50000x128 .f32) (ew : FVec Ideal S640000 .f32) (src dst : IVec S640000 32) :
    FVec Ideal S50000x128 .f32 :=
  Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (mulf
      (Host.gather gather_S50000x128_S640000x1_S640000x128_1_0_n_n_0_1_1128 x1
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src)))
      (broadcastInDim S640000x128 ![0, 1] bcast_S640000x1_S640000x128_0_1
        (broadcastInDim S640000x1 ![0] bcast_S640000_S640000x1_0 ew)))

end Cert.KernelIdeal.Neighbours

end
-- ==== Proof.Between.lean ====
/-
  The host stretch between the two kernel regions, read at the three buffers the second region loads.

  The projected features `features · w1` are untouched by the stretch; the summed messages are `aggregate` of the
  other projection `features · w2`, the edge weights and the edge ends; the bias row is the bias vector cast to one
  row. Each is read off the fold of the stretch's operations over the first region's exit contents, and those
  contents are the launch arguments and, at the two result arrays, what the first region's write-backs leave.
-/
import proofs.«167363_j38405597561663_1_alg».proof.Proof.Gen.KernelIdeal.Frame
import proofs.«167363_j38405597561663_1_alg».proof.Proof.Projections
import proofs.«167363_j38405597561663_1_alg».proof.Proof.Neighbours
import Idealize.ShloMosaic.Lib.StableHlo.Run

noncomputable section

namespace Cert.KernelIdeal.Between

open Cert.KernelIdeal Cert.KernelIdeal.Gen Idealize.ShloMosaic Idealize.ShloMosaic.TcCoe Idealize.SL.Sem
open Idealize.ShloMosaic.StableHlo Cert.LibPlainDot Cert.KernelIdeal.Neighbours

/-- Over any contents `W`: the stretch leaves the first projection where it was, -/
theorem after_v0_0 (W : Valuation τ sig (Elt Ideal)) :
    StableHlo.after hostOps1 W (Proc.devRef .tc main_v0_0) = W (Proc.devRef .tc main_v0_0) := by
  after_results

/-- writes the neighbourhood sum of the second projection, -/
theorem after_v13 (W : Valuation τ sig (Elt Ideal)) :
    StableHlo.after hostOps1 W (Proc.devRef .tc main_v13)
      = aggregate (W (Proc.devRef .tc main_v0_1)) (W (Proc.devRef .tc main_arg4)) (W (Proc.devRef .tc main_arg5))
          (W (Proc.devRef .tc main_arg6)) := by
  after_results
  rfl

/-- and the bias vector as one row. -/
theorem after_v14 (W : Valuation τ sig (Elt Ideal)) :
    StableHlo.after hostOps1 W (Proc.devRef .tc main_v14)
      = shapeCast S1x128 (W (Proc.devRef .tc main_arg3)) shapeCasts_S128_S1x128 := by
  after_results
  rfl

variable (m : (ℓ : Loc nD τ sig) → Buf (Elt Ideal) ℓ) (ρ : Dev nD → PrngReg)

/-- The second region finds the first projection at `features · w1`, -/
theorem entry_v0_0 (c : Dev nD) :
    V2 m ρ c main_v0_0
      = rowsTimes (m ((c.tc : Thread nD τ).loc main_arg0)) (m ((c.tc : Thread nD τ).loc main_arg1)) :=
  ((after_v0_0 (W1 m ρ c)).trans (W1_arr m ρ c 3)).trans (Projections.final3 (V0 m ρ) c)

/-- the summed messages at `aggregate` of `features · w2`, -/
theorem entry_v13 (c : Dev nD) :
    V2 m ρ c main_v13
      = aggregate (rowsTimes (m ((c.tc : Thread nD τ).loc main_arg0)) (m ((c.tc : Thread nD τ).loc main_arg2)))
          (m ((c.tc : Thread nD τ).loc main_arg4)) (m ((c.tc : Thread nD τ).loc main_arg5))
          (m ((c.tc : Thread nD τ).loc main_arg6)) := by
  have h1 : W1 m ρ c (Proc.devRef .tc main_v0_1)
      = rowsTimes (m ((c.tc : Thread nD τ).loc main_arg0)) (m ((c.tc : Thread nD τ).loc main_arg2)) :=
    (W1_arr m ρ c 4).trans (Projections.final4 (V0 m ρ) c)
  have h4 : W1 m ρ c (Proc.devRef .tc main_arg4) = m ((c.tc : Thread nD τ).loc main_arg4) :=
    W1_of_ne m ρ c main_arg4 (by decide)
  have h5 : W1 m ρ c (Proc.devRef .tc main_arg5) = m ((c.tc : Thread nD τ).loc main_arg5) :=
    W1_of_ne m ρ c main_arg5 (by decide)
  have h6 : W1 m ρ c (Proc.devRef .tc main_arg6) = m ((c.tc : Thread nD τ).loc main_arg6) :=
    W1_of_ne m ρ c main_arg6 (by decide)
  refine (after_v13 (W1 m ρ c)).trans ?_
  rw [h1, h4, h5, h6]

/-- and the bias row at the bias vector cast to `[1, 128]`. -/
theorem entry_v14 (c : Dev nD) :
    V2 m ρ c main_v14 = shapeCast S1x128 (m ((c.tc : Thread nD τ).loc main_arg3)) shapeCasts_S128_S1x128 := by
  have h3 : W1 m ρ c (Proc.devRef .tc main_arg3) = m ((c.tc : Thread nD τ).loc main_arg3) :=
    W1_of_ne m ρ c main_arg3 (by decide)
  refine (after_v14 (W1 m ρ c)).trans ?_
  rw [h3]

end Cert.KernelIdeal.Between

end
-- ==== Proof.Result.lean ====
/-
  The kernel program's result as one function of its arguments.

  The result buffer ends at what the second region's write-backs leave: `biasFloor` of the three arrays that region
  finds — and it finds `features · w1`, the neighbourhood sum of `features · w2`, and the bias vector as one row.
-/
import proofs.«167363_j38405597561663_1_alg».proof.Proof.Combine
import proofs.«167363_j38405597561663_1_alg».proof.Proof.Between

noncomputable section

namespace Cert.KernelIdeal.Result

open Cert.KernelIdeal Cert.KernelIdeal.Gen Idealize.ShloMosaic Idealize.ShloMosaic.TcCoe Idealize.SL.Sem
open Idealize.ShloMosaic.ValueIdx Cert.LibPlainDot Cert.GraphConv Cert.KernelIdeal.Neighbours

variable (m : (ℓ : Loc nD τ sig) → Buf (Elt Ideal) ℓ) (ρ : Dev nD → PrngReg)

/-- The bias vector cast to one row reads the vector along its axis. -/
theorem bias_row (b : FVec Ideal S128 .f32) :
    shapeCast S1x128 b shapeCasts_S128_S1x128 = fun k => b (ix1 (⟨(k 1).val, idx2_lt1 k⟩ : Fin 128)) := by
  funext k
  obtain ⟨u, i, rfl⟩ : ∃ (u : Fin 1) (i : Fin 128), k = ix2 u i := ⟨k 0, k 1, eq_ix2 k⟩
  exact shapeCast_a_1a_apply b shapeCasts_S128_S1x128 u i

theorem result (c : Dev nD) :
    W3 m ρ c (Proc.devRef .tc main_v15)
      = biasFloor (rowsTimes (m ((c.tc : Thread nD τ).loc main_arg0)) (m ((c.tc : Thread nD τ).loc main_arg1)))
          (aggregate (rowsTimes (m ((c.tc : Thread nD τ).loc main_arg0)) (m ((c.tc : Thread nD τ).loc main_arg2)))
            (m ((c.tc : Thread nD τ).loc main_arg4)) (m ((c.tc : Thread nD τ).loc main_arg5))
            (m ((c.tc : Thread nD τ).loc main_arg6)))
          (fun k => m ((c.tc : Thread nD τ).loc main_arg3) (ix1 (⟨(k 1).val, idx2_lt1 k⟩ : Fin 128)))
          (Ideal.ofBits .f32 0x00000000#32) := by
  refine (W3_arr m ρ c 3).trans ((Combine.final3 (V2 m ρ) c).trans ?_)
  rw [Between.entry_v0_0, Between.entry_v13, Between.entry_v14, bias_row]

end Cert.KernelIdeal.Result

end
-- ==== Proof.RefValue.lean ====
/-
  The reference's result is the same layer.

  Read one operation at a time, the reference adds `features · w1` (a host matrix product), the neighbourhood sum of
  `features · w2` (the same host operations as the kernel's program, on the other host product) and the bias vector
  broadcast over the rows, and takes the maximum with zero: `biasFloor` of the two products' terms with the bias
  vector as the one row.
-/
import proofs.«167363_j38405597561663_1_alg».proof.Proof.Gen.ReferenceIdeal.Read
import proofs.«167363_j38405597561663_1_alg».proof.Proof.LibPlainDot
import proofs.«167363_j38405597561663_1_alg».proof.Proof.Layer
import proofs.«167363_j38405597561663_1_alg».proof.Proof.Neighbours

noncomputable section

namespace Cert.ReferenceIdeal.RefValue

open Cert.ReferenceIdeal Cert.ReferenceIdeal.Gen Cert.ReferenceIdeal.Read Idealize.ShloMosaic
open Idealize.ShloMosaic.ValueIdx Cert.LibPlainDot Cert.GraphConv

/-- The two host products are `rowsTimes`. -/
theorem v0_eq (x0 : FVec Ideal S50000x128 .f32) (x1 : FVec Ideal S128x128 .f32) :
    val_main_v0 (F := Ideal) x0 x1 = rowsTimes x0 x1 := by
  unfold val_main_v0
  exact dotGeneral_plain none _ x0 x1

theorem v1_eq (x0 : FVec Ideal S50000x128 .f32) (x2 : FVec Ideal S128x128 .f32) :
    val_main_v1 (F := Ideal) x0 x2 = rowsTimes x0 x2 := by
  unfold val_main_v1
  exact dotGeneral_plain none _ x0 x2

/-- The reference's gather, scaling and summation are the kernel program's: the same operations with the same
    dimension numbers. -/
theorem v14_eq (x0 : FVec Ideal S50000x128 .f32) (x2 : FVec Ideal S128x128 .f32) (x4 : FVec Ideal S640000 .f32)
    (x5 x6 : IVec S640000 32) :
    val_main_v14 (F := Ideal) x0 x2 x4 x5 x6
      = Cert.KernelIdeal.Neighbours.aggregate (val_main_v1 (F := Ideal) x0 x2) x4 x5 x6 := rfl

/-- The reference's result as one function of its arguments. -/
theorem result_eq (x0 : FVec Ideal S50000x128 .f32) (x1 x2 : FVec Ideal S128x128 .f32) (x3 : FVec Ideal S128 .f32)
    (x4 : FVec Ideal S640000 .f32) (x5 x6 : IVec S640000 32) :
    val_main_v19 (F := Ideal) x0 x1 x2 x3 x4 x5 x6
      = biasFloor (rowsTimes x0 x1) (Cert.KernelIdeal.Neighbours.aggregate (rowsTimes x0 x2) x4 x5 x6)
          (fun k => x3 (ix1 (⟨(k 1).val, idx2_lt1 k⟩ : Fin 128))) (Ideal.ofBits .f32 0x00000000#32) := by
  unfold val_main_v19 val_main_v18 val_main_v15 val_main_v17 val_main_v16 val_main_call0_v0 val_main_call0_cst
  rw [v14_eq, v0_eq, v1_eq]
  exact host_biasFloor _ _ x3 _ _ _ _

end Cert.ReferenceIdeal.RefValue

end
-- ==== Proof.lean ====
/-
  One graph-convolution layer, kernel against reference, on the extended reals.

  Both programs compute, for node features `X`, weights `w1`, `w2`, a bias vector `b` and a weighted edge list,

      out = max (X · w1 + N (X · w2) + b, 0),

  where `N` sums, into each target node's row, the source nodes' rows scaled by the edge weights. The kernel's program
  forms the two products block of rows by block of rows in a first kernel region (from operands rounded to bf16, which
  changes nothing on the extended reals), applies `N` on the host, and adds, adds the bias and floors block by block
  in a second region; the reference does it with whole-array host operations. A product's rows and the final sum's
  rows depend on the same rows of their operands only, the blocks tile the arrays, and `N` is the same host
  operations in both programs, so the two results are one function of the arguments (`biasFloor`, `rowsTimes`,
  `aggregate`). No law beyond that is needed, and no finiteness of the inputs.

  The three frame claims are the generated frames (the reference's is its generated run with the result dropped); the
  idealization rewrote nothing, so `preserves` is trivial.
-/
import proofs.«167363_j38405597561663_1_alg».proof.Defs
import proofs.«167363_j38405597561663_1_alg».proof.Proof.Gen.Kernel
import proofs.«167363_j38405597561663_1_alg».proof.Proof.Gen.Kernel.Skeleton
import proofs.«167363_j38405597561663_1_alg».proof.Proof.Gen.Kernel.Launch
import proofs.«167363_j38405597561663_1_alg».proof.Proof.Gen.Kernel.Points
import proofs.«167363_j38405597561663_1_alg».proof.Proof.Gen.Kernel.Frame
import proofs.«167363_j38405597561663_1_alg».proof.Proof.Gen.KernelIdeal
import proofs.«167363_j38405597561663_1_alg».proof.Proof.Gen.KernelIdeal.Skeleton
import proofs.«167363_j38405597561663_1_alg».proof.Proof.Gen.KernelIdeal.Launch
import proofs.«167363_j38405597561663_1_alg».proof.Proof.Gen.KernelIdeal.Points
import proofs.«167363_j38405597561663_1_alg».proof.Proof.Gen.KernelIdeal.Frame
import proofs.«167363_j38405597561663_1_alg».proof.Proof.Gen.ReferenceIdeal
import proofs.«167363_j38405597561663_1_alg».proof.Proof.Gen.Pre_finite_inputs
import proofs.«167363_j38405597561663_1_alg».proof.Proof.Gen.ReferenceIdeal.Run
import proofs.«167363_j38405597561663_1_alg».proof.Proof.Gen.ReferenceIdeal.Read
import proofs.«167363_j38405597561663_1_alg».proof.Proof.WholeRun
import proofs.«167363_j38405597561663_1_alg».proof.Proof.Result
import proofs.«167363_j38405597561663_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the one function of the (agreeing) arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Result.result m ρ c), (h c).2⟩)
      (Cert.KernelIdeal.WholeRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
